-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512 : Shape := ⟨1, ![512]⟩
abbrev S50000x128 : Shape := ⟨2, ![50000, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512 : S_.BroadcastsInDim S512 (![] : Fin 0 → Fin S512.rank)
  reducesTo_S512_S_d0 : S512.ReducesTo [0] S_
  bcast_S_S50000x128 : S_.BroadcastsInDim S50000x128 (![] : Fin 0 → Fin S50000x128.rank)
  reducesTo_S50000x128_S_d0_1 : S50000x128.ReducesTo [0, 1] S_

variable [Facts]

def fn {F : FTy → Type} [FloatOps F] (main_arg0 : FVec F S50000x512 .f32) (main_arg1 : FVec F S512 .f32) (main_arg2 : FVec F S50000x128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  main_v13
-- ==== Kernel.lean ====
abbrev S50000x512 : Shape := ⟨2, ![50000, 512]⟩
abbrev S512 : Shape := ⟨1, ![512]⟩
abbrev S50000x128 : Shape := ⟨2, ![50000, 128]⟩
abbrev S2x512x128 : Shape := ⟨3, ![2, 512, 128]⟩
abbrev S5000x512 : Shape := ⟨2, ![5000, 512]⟩
abbrev S5000x128 : Shape := ⟨2, ![5000, 128]⟩
abbrev S1x512x128 : Shape := ⟨3, ![1, 512, 128]⟩
abbrev S512x128 : Shape := ⟨2, ![512, 128]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S512, .f32⟩
  | .hbm, ⟨2, _⟩ => ⟨S50000x128, .f32⟩
  | .hbm, ⟨3, _⟩ => ⟨S2x512x128, .f32⟩
  | .hbm, ⟨4, _⟩ => ⟨S1x512x128, .f32⟩
  | .hbm, ⟨5, _⟩ => ⟨S512x128, .f32⟩
  | .hbm, ⟨6, _⟩ => ⟨S1x512x128, .f32⟩
  | .hbm, ⟨7, _⟩ => ⟨S512x128, .f32⟩
  | .hbm, ⟨8, _⟩ => ⟨S512x128, .f32⟩
  | .hbm, ⟨9, _⟩ => ⟨S512x1, .f32⟩
  | .hbm, ⟨10, _⟩ => ⟨S512x128, .f32⟩
  | .hbm, ⟨11, _⟩ => ⟨S512x128, .f32⟩
  | .hbm, ⟨12, _⟩ => ⟨S50000x128, .f32⟩
  | .local _ .vmem, ⟨0, _⟩ => ⟨S5000x512, .f32⟩
  | .local _ .vmem, ⟨1, _⟩ => ⟨S5000x512, .f32⟩
  | .local _ .vmem, ⟨2, _⟩ => ⟨S5000x128, .f32⟩
  | .local _ .vmem, ⟨3, _⟩ => ⟨S5000x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S5000x512, .f32⟩
  | .local _ .vmem, ⟨8, _⟩ => ⟨S5000x512, .f32⟩
  | .local _ .vmem, ⟨9, _⟩ => ⟨S512x128, .f32⟩
  | .local _ .vmem, ⟨10, _⟩ => ⟨S5000x128, .f32⟩
  | .local _ .vmem, ⟨11, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x512_S5000x512_0_0 : ∀ a, (![0, 0] : Fin 2 → Nat) a + S5000x512.size a ≤ S5000x512.size a
  h_S5000x512 : 0 < S5000x512.numel
  inb_S5000x128_S5000x128_0_0 : ∀ a, (![0, 0] : Fin 2 → Nat) a + S5000x128.size a ≤ S5000x128.size a
  h_S5000x128 : 0 < S5000x128.numel
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  slices_S2x512x128_S1x512x128_0_0_0 : S2x512x128.Slices ![0, 0, 0] S1x512x128
  slices_S2x512x128_S1x512x128_1_0_0 : S2x512x128.Slices ![1, 0, 0] S1x512x128
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  dot_S5000x512_S5000x128_S512x128_0_0_1_1_n_n_wf : DotDims.WF S5000x512 S5000x128 S512x128 [0] [0] [1] [1] [] []
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S2x512x128.size a
  hwx0_2 : ∀ i : grid0.Coords, EltTy.bits .f32 = 32 ∨ (Rect.block (s := S2x512x128) S1x512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x512.size a ≤ S50000x512.size a
  hwx1_0 : ∀ i : grid1.Coords, EltTy.bits .f32 = 32 ∨ (Rect.block (s := S50000x512) S5000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S5000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512 : Shape := ⟨1, ![512]⟩
abbrev S50000x128 : Shape := ⟨2, ![50000, 128]⟩
abbrev S512x50000 : Shape := ⟨2, ![512, 50000]⟩
abbrev S512x128 : Shape := ⟨2, ![512, 128]⟩
abbrev S512x1 : Shape := ⟨2, ![512, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512, .f32⟩
  | .hbm, ⟨2, _⟩ => ⟨S50000x128, .f32⟩
  | .hbm, ⟨3, _⟩ => ⟨S512x50000, .f32⟩
  | .hbm, ⟨4, _⟩ => ⟨S512x128, .f32⟩
  | .hbm, ⟨5, _⟩ => ⟨S512x1, .f32⟩
  | .hbm, ⟨6, _⟩ => ⟨S512x128, .f32⟩
  | .hbm, ⟨7, _⟩ => ⟨S512x128, .f32⟩
  | .hbm, ⟨8, _⟩ => ⟨S50000x128, .f32⟩
  | .hbm, ⟨9, _⟩ => ⟨S_, .f32⟩
  | .hbm, ⟨10, _⟩ => ⟨S50000x128, .f32⟩
  | .hbm, ⟨11, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  transposes_S50000x512_S512x50000_1_0 : S50000x512.Transposes [1, 0] S512x50000
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S_S50000x128 : S_.BroadcastsInDim S50000x128 (![] : Fin 0 → Fin S50000x128.rank)
  dot_S512x50000_S50000x128_S512x128_1_0_0_1_n_n_wf : DotDims.WF S512x50000 S50000x128 S512x128 [1] [0] [0] [1] [] []
  dot_S50000x512_S512x128_S50000x128_1_0_0_1_n_n_wf : DotDims.WF S50000x512 S512x128 S50000x128 [1] [0] [0] [1] [] []

variable [Facts₀]

def dot_S512x50000_S50000x128_S512x128_1_0_0_1_n_n : DotDims S512x50000 S50000x128 S512x128 where
  lhsContracting := [1]
  rhsContracting := [0]
  lhsNonContracting := [0]
  rhsNonContracting := [1]
  lhsBatch := []
  rhsBatch := []
  wf := dot_S512x50000_S50000x128_S512x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.BitsSpectrumShared.lean ====
/-
  (The word-level program: the same text as for the idealized program, in the other program's namespace.)
  The first kernel region, at any contents V of the core's buffers on entry: ten grid points in two runs of five.
  Point t = 5 c + i takes rows 5000 t .. 5000 t + 4999 of the eigenvector array and of the feature array; the body
  keeps a 512 x 128 accumulator in a scratch buffer of its own: at i = 0 it stores zeros there, at every point it
  adds the product (rows of U) transposed times (rows of x), and at i = 4 it stores the accumulator into slab c of
  the output array. This module: the blocks, the two branch conditions decided over the grid, where the output
  window is idle, and the names of the buffers the body is called with.
-/
import proofs.«149052_j48928267436259_2_alg».proof.Proof.Gen.Kernel.Launch
import proofs.«149052_j48928267436259_2_alg».proof.Proof.Gen.Kernel.Skeleton
import proofs.«149052_j48928267436259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eigenvector window's staging buffer holds the point's row block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature window's staging buffer holds the point's row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first point of its run of five" (inner coordinate 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last point of its run of five" (inner coordinate 4). -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first point the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle point likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last point the body stores into it. -/
theorem liveAt0_2_C : ∀ t : Fin cfg0.N, ¬cond0_0 (grid0.coords t) → cond0_1 (grid0.coords t) → cfg0.idle 2 (grid0.coords t) = false := by decide +kernel

/-! ## The buffers the body is called with -/

/-- One staging buffer of the output window, through which its contents are stated. -/
abbrev VO0_2 : View sig .tc .vmem S1x512x128 .f32 := (Memref.whole cc0_stg2_0 : Memref sig .tc .vmem S1x512x128 .f32).view
abbrev ms0_0 (t : Fin cfg0.N) : Memref sig .tc .vmem S5000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x128 .f32 := Memref.whole cc0_scratch0
abbrev VS0_0 : View sig .tc .vmem S512x128 .f32 := scM0_0.view

/-- The other scoped buffers of the core that are no staging buffer of this region (the second kernel's staging
    buffers), each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant starts from: the accumulator at some contents, the other scoped buffers, the
    generator register. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

end Cert.Kernel.Hand

end
-- ==== Proof.BitsSpectrumRunFirst.lean ====
/-
  (The word-level program: the same text as for the idealized program, in the other program's namespace.)
  The first kernel's body at the FIRST point of a run of five (inner coordinate 0): it stores zeros into the
  accumulator, adds the point's product, and leaves the output block alone. The pieces the accumulator ends with
  are found by running the body.
-/
import proofs.«149052_j48928267436259_2_alg».proof.Proof.BitsSpectrumShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole buffers — the two inputs' at x0, x1, the output's at xi2 (handed back untouched), the accumulator at
    anything — the body runs to the continuation with the accumulator's pieces written. -/
noncomputable def kernelRun0_A (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) :
    Σ' (L2 : List (View.Piece (Elt F) S1x512x128 .f32)), { LS0 : List (View.Piece (Elt F) S512x128 .f32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__spec_kernel i arg2 harg2 arg3 harg3 arg4 harg4 arg5 harg5) K } := by
  refine ⟨[], ?_, fun xi2 E K => ?run⟩
  case run =>
    simp only [cc0__spec_kernel_eq_skeleton]; unfold cc0__spec_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsSpectrumRunMiddle.lean ====
/-
  (The word-level program: the same text as for the idealized program, in the other program's namespace.)
  The first kernel's body at a MIDDLE point of a run of five (inner coordinate 1, 2 or 3): it adds the point's
  product to the accumulator as the point before left it, and leaves the output block alone.
-/
import proofs.«149052_j48928267436259_2_alg».proof.Proof.BitsSpectrumRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole buffers — the inputs' at x0, x1, the output's at xi2 (handed back untouched), the accumulator at xs0 —
    the body runs to the continuation with the accumulator's pieces written. -/
noncomputable def kernelRun0_B (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) :
    Σ' (L2 : List (View.Piece (Elt F) S1x512x128 .f32)), { LS0 : List (View.Piece (Elt F) S512x128 .f32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__spec_kernel i arg2 harg2 arg3 harg3 arg4 harg4 arg5 harg5) K } := by
  refine ⟨[], ?_, fun xi2 E K => ?run⟩
  case run =>
    simp only [cc0__spec_kernel_eq_skeleton]; unfold cc0__spec_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsSpectrumRunLast.lean ====
/-
  (The word-level program: the same text as for the idealized program, in the other program's namespace.)
  The first kernel's body at the LAST point of a run of five (inner coordinate 4): it adds the point's product to
  the accumulator as the point before left it, and stores the accumulator into the output block.
-/
import proofs.«149052_j48928267436259_2_alg».proof.Proof.BitsSpectrumRunMiddle

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole buffers — the inputs' at x0, x1, the output's at anything, the accumulator at xs0 — the body runs to the
    continuation with the output's and the accumulator's pieces written. -/
noncomputable def kernelRun0_C (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) :
    Σ' (L2 : List (View.Piece (Elt F) S1x512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__spec_kernel i arg2 harg2 arg3 harg3 arg4 harg4 arg5 harg5) K } := by
  refine ⟨?_, ?_, fun E K => ?run⟩
  case run =>
    simp only [cc0__spec_kernel_eq_skeleton]; unfold cc0__spec_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BitsSpectrumRegion.lean ====
/-
  (The word-level program: the same text as for the idealized program, in the other program's namespace.)
  The first kernel region's proof data. What the accumulator holds after each grid point is a recursion on the point:
  at the first point of a run of five, what the body leaves from zeros; at the others, what the body leaves from the
  accumulator of the point before. The output block after a point is, at the last point of a run, the accumulator
  stored through; elsewhere nothing stored (the window is idle there and not written back). The invariant between
  points holds the accumulator at the recursion's value, the core's other scoped buffers and the generator register.
-/
import proofs.«149052_j48928267436259_2_alg».proof.Proof.BitsSpectrumRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case's accumulator pieces tile the accumulator. -/
theorem scover0_A_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) (y : S512x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x128.size (by sl_kernel_rfl) y

/-- What the first case leaves in the accumulator: its pieces read back. -/
def sout0_A_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) : Vec F S512x128 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) (y : S512x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x128.size (by sl_kernel_rfl) y

/-- What a middle case leaves in the accumulator. -/
def sout0_B_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) : Vec F S512x128 .f32 :=
  VS0_0.read (Elt F) (VS0_0.writes (Elt F) VS0_0.junk (kernelRun0_B c i arg2 harg2 arg3 harg3 arg4 harg4 arg5 harg5 hc0 hc1 x0 x1 xs0).2.1)

/-- The last case's output pieces tile the output block. -/
theorem cover0_C_2 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) (y : S1x512x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x512x128.size (by sl_kernel_rfl) y

/-- What the last case leaves in the output block. -/
def out0_C_2 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) : Vec F S1x512x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) (y : S512x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x128.size (by sl_kernel_rfl) y

/-- What the last case leaves in the accumulator. -/
def sout0_C_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) : Vec F S512x128 .f32 :=
  VS0_0.read (Elt F) (VS0_0.writes (Elt F) VS0_0.junk (kernelRun0_C c i arg2 harg2 arg3 harg3 arg4 harg4 arg5 harg5 hc0 hc1 x0 x1 xs0).2.1)

/-- The output block where the body stores nothing: contents nothing consults. -/
def idleOut : Vec F S1x512x128 .f32 := VO0_2.read (Elt F) VO0_2.junk

/-! ## The accumulator and the output block, point by point -/

/-- THE ACCUMULATION: the accumulator after the body at position n. -/
def accAt0 (c : Dev nD) : (n : ℕ) → n < cfg0.N → Vec F S512x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 5 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩)
    else
      if h1 : (n + 1) % 5 = 4 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (accAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (accAt0 c n (Nat.lt_of_succ_lt hn))

theorem accAt0_A (c : Dev nD) (t : Fin cfg0.N) (h0 : t.val % 5 = 0) (h1 : ¬t.val % 5 = 4) :
    accAt0 V c t.val t.isLt = sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans rfl

theorem accAt0_B (c : Dev nD) (t : Fin cfg0.N) (h0 : ¬t.val % 5 = 0) (h1 : ¬t.val % 5 = 4) :
    accAt0 V c t.val t.isLt = sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 5 = 0) (h1 : t.val % 5 = 4) :
    accAt0 V c t.val t.isLt = sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at position n. -/
def outAt0 (c : Dev nD) (n : ℕ) (hn : n < cfg0.N) : Vec F S1x512x128 .f32 :=
  if h1 : n % 5 = 4 then
    out0_C_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => (fun h => by (try dsimp only at h); omega) ((hcond0_0 ⟨n, hn⟩).mp h)) ((hcond0_1 ⟨n, hn⟩).mpr h1) (iblk0 V c 0 ⟨n, hn⟩) (iblk0 V c 1 ⟨n, hn⟩) (accAt0 V c (n - 1) (Nat.lt_of_le_of_lt (Nat.sub_le _ _) hn))
  else idleOut

theorem outAt0_C (c : Dev nD) (t : Fin cfg0.N) (h0 : ¬t.val % 5 = 0) (h1 : t.val % 5 = 4) :
    outAt0 V c t.val t.isLt = out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) :=
  dif_pos h1

/-! ## The invariant between points -/

def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)) ∗ otherScoped c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: which of the three cases the point is in is decided by its position modulo five; the
    invariant hands the body the accumulator at what the point before left (at anything before the first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 5 = 0
  · have h1 : ¬t.val % 5 = 4 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [accAt0_A V c t h0 h1]
    unfold sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 5 = 4
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [accAt0_C V c t h0 h1, outAt0_C V c t h0 h1]
      unfold out0_C_2 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [accAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the starting form back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.Kernel.Hand

end
-- ==== Proof.BitsLogitsRegion.lean ====
/-
  (The word-level program: the same text as for the idealized program, in the other program's namespace.)
  The second kernel region, at any contents V of the core's buffers on entry: ten grid points, point t taking rows
  5000 t .. 5000 t + 4999 of the eigenvector array and the whole weighted spectrum (fetched once: its block index
  never moves), and storing into its output block the matrix product of the two, clamped below at zero. The body
  keeps nothing between points; its output block is written back at every point.
-/
import proofs.«149052_j48928267436259_2_alg».proof.Proof.Gen.Kernel.Launch
import proofs.«149052_j48928267436259_2_alg».proof.Proof.Gen.Kernel.Skeleton
import proofs.«149052_j48928267436259_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eigenvector window's staging buffer holds the point's row block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weighted spectrum's staging buffer holds the whole matrix at every point: fetched at the first, and its block
    index the same ever after. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's three whole-buffer accesses -/

abbrev r1_0 : Rect S5000x512 := Rect.unit (s := S5000x512) ![0, 0] S5000x512.size inb_S5000x512_S5000x512_0_0
abbrev r1_1 : Rect S512x128 := Rect.unit (s := S512x128) ![0, 0] S512x128.size inb_S512x128_S512x128_0_0
abbrev r1_2 : Rect S5000x128 := Rect.unit (s := S5000x128) ![0, 0] S5000x128.size inb_S5000x128_S5000x128_0_0

/-- What the body leaves in the output block: one whole-block store of max(rows · spectrum, 0). -/
def out1_2 (x0 : Vec F S5000x512 .f32) (x1 : Vec F S512x128 .f32) : Vec F S5000x128 .f32 :=
  View.canon [⟨r1_2, k1_pay1 (View.ld x0 r1_0) (View.ld x1 r1_1)⟩]

/-- The one store covers the block. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

/-! ## The body's triple -/

set_option maxHeartbeats 1000000 in
/-- On whole staging buffers, the two inputs' at x0 and x1 and the output's at anything, the body runs to the
    continuation with the inputs as they were and the output block at out1_2 x0 x1. -/
theorem sound_kernel1 (c : Dev nD) (E : Set ℕ) (i : grid1.Coords) (arg1 : Memref sig .tc .vmem S5000x512 .f32) (harg1 : arg1.IsWhole)
    (arg2 : Memref sig .tc .vmem S512x128 .f32) (harg2 : arg2.IsWhole) (arg3 : Memref sig .tc .vmem S5000x128 .f32) (harg3 : arg3.IsWhole)
    (x0 : Vec F S5000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__logits_kernel i arg1 harg1 arg2 harg2 arg3 harg3) K := by
  simp only [cc1__logits_kernel_eq_skeleton]; unfold cc1__logits_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- After the body at point t: each input's buffer at its block, the output's at out1_2 of the two; the invariant is
    the scoped buffers no window stages and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsTwoRegionRun.lean ====
/-
  (The word-level program: the same text as for the idealized program, in the other program's namespace.)
  The whole program: the accumulating kernel, eight host operations (the two slabs of its output added, the filter
  broadcast along rows, their product), the clamped-product kernel. The contents of every unscoped buffer of a core
  are followed through the three items: at the launch the memory; after a kernel region its arrays at what the
  write-backs leave and everything else unchanged; after the host stretch the operations' fold. Every weakly fair
  execution terminates with every unscoped buffer at the last of these; the three argument arrays read back through
  the fold are the launch memory's.
-/
import proofs.«149052_j48928267436259_2_alg».proof.Proof.BitsSpectrumRegion
import proofs.«149052_j48928267436259_2_alg».proof.Proof.BitsLogitsRegion
import proofs.«149052_j48928267436259_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- The same read at the TensorCore's references: what the first region's proof data take. -/
abbrev Vent0 : (c : Dev nD) → (b : Ref sig .tc) → Buf (Elt F) ((c : Thread nD τ).loc b) := fun c b => W0 m c b
/-- After the first region: its arrays at what the write-backs leave, every other buffer as entered. -/
def W1 (c : Dev nD) : Valuation τ sig (Elt F) :=
  Pipeline.withArrays spec0 c (W0 m c) fun w => (dat0 (Vent0 m) c).arrAt w cfg0.N
theorem W1_arr (c : Dev nD) (w : Fin cfg0.W) :
    W1 m c (Proc.devRef .tc (Pipeline.arrRef spec0 w)) = (dat0 (Vent0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vex0 : (c : Dev nD) → (b : Ref sig .tc) → Buf (Elt F) ((c : Thread nD τ).loc b) := fun c b => W1 m c b
theorem hF0 (c : Dev nD) (w : Fin cfg0.W) : (dat0 (Vent0 m) c).arrAt w cfg0.N = Vex0 m c (Pipeline.arrRef spec0 w) :=
  (W1_arr m c w).symm
theorem hrest0 (c : Dev nD) : ∀ b, b ∉ Finset.univ.image (Pipeline.arrRef spec0) → Vex0 m c b = Vent0 m c b :=
  fun b hb => W1_of_ne m c b fun w e => hb (Finset.mem_image.mpr ⟨w, Finset.mem_univ _, e⟩)

/-- After the host stretch: the second region's entry. -/
abbrev W2 : Dev nD → Valuation τ sig (Elt F) := fun c => StableHlo.after hostOps1 (W1 m c)
abbrev Vent1 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (Vent1 m) c).arrAt w cfg1.N
theorem W3_arr (c : Dev nD) (w : Fin cfg1.W) :
    W3 m c (Proc.devRef .tc (Pipeline.arrRef spec1 w)) = (dat1 (Vent1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vex1 : (c : Dev nD) → (b : Ref sig .tc) → Buf (Elt F) ((c : Thread nD τ).loc b) := fun c b => W3 m c b
theorem hF1 (c : Dev nD) (w : Fin cfg1.W) : (dat1 (Vent1 m) c).arrAt w cfg1.N = Vex1 m c (Pipeline.arrRef spec1 w) :=
  (W3_arr m c w).symm
theorem hrest1 (c : Dev nD) : ∀ b, b ∉ Finset.univ.image (Pipeline.arrRef spec1) → Vex1 m c b = Vent1 m c b :=
  fun b hb => W3_of_ne m c b fun w e => hb (Finset.mem_image.mpr ⟨w, Finset.mem_univ _, e⟩)

/-! ### The arguments end as launched -/

/-- The eigenvector array: an input of both regions, written by no host operation. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Vent1 m) c).arrAt_in 0 rfl _).trans (A_eq1 (Vent1 m) c 0))
    _ = W1 m c (Proc.devRef .tc main_arg0) := StableHlo.after_of_writes_sub hostOps1 _ hostOps1_writes (by decide)
    _ = W0 m c (Proc.devRef .tc main_arg0) := (W1_arr m c 0).trans (((dat0 (Vent0 m) c).arrAt_in 0 rfl _).trans (A_eq0 (Vent0 m) c 0))
    _ = m ((c : Thread nD τ).loc main_arg0) := rfl

/-- The filter: read by the host stretch only. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

/-- The feature array: an input of the first region. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (Vent0 m) c).arrAt_in 1 rfl _).trans (A_eq0 (Vent0 m) c 1))
    _ = m ((c : Thread nD τ).loc main_arg2) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vent0 m) c
  | ⟨1, _⟩ => fun c => dat1 (Vent1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The accumulating region: entered from every unscoped buffer at the launch contents, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = (dat0 (Vent0 m) c).Φ (Fin.last cfg0.N) from rfl]
    have h := hout0 (Vent0 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (Vex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The clamped-product region: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vex1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three items, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer of every core ends at W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The result array ends at what the second region's write-backs leave. -/
theorem W3_main_v9 (c : Dev nD) : W3 m c (Proc.devRef .tc main_v9) = (dat1 (Vent1 m) c).arrAt 2 cfg1.N := W3_arr m c 2

/-- THE RUN, read at the result and the arguments. -/
theorem run_result : θ_run defs (onTc (τ := τ) (main (F := F))) ⟨m, fun _ => 0, ρ⟩ (fun r => ∀ c : Dev nD,
      r.2.mem ((c.tc : Thread nD τ).loc main_v9) = (dat1 (Vent1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v9 (by decide))).trans (W3_main_v9 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.SpectrumShared.lean ====
/-
  The first kernel region, at any contents V of the core's buffers on entry: ten grid points in two runs of five.
  Point t = 5 c + i takes rows 5000 t .. 5000 t + 4999 of the eigenvector array and of the feature array; the body
  keeps a 512 x 128 accumulator in a scratch buffer of its own: at i = 0 it stores zeros there, at every point it
  adds the product (rows of U) transposed times (rows of x), and at i = 4 it stores the accumulator into slab c of
  the output array. This module: the blocks, the two branch conditions decided over the grid, where the output
  window is idle, and the names of the buffers the body is called with.
-/
import proofs.«149052_j48928267436259_2_alg».proof.Proof.Gen.KernelIdeal.Launch
import proofs.«149052_j48928267436259_2_alg».proof.Proof.Gen.KernelIdeal.Skeleton
import proofs.«149052_j48928267436259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The eigenvector window's staging buffer holds the point's row block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature window's staging buffer holds the point's row block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions -/

/-- "This is the first point of its run of five" (inner coordinate 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last point of its run of five" (inner coordinate 4). -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first point the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a middle point likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last point the body stores into it. -/
theorem liveAt0_2_C : ∀ t : Fin cfg0.N, ¬cond0_0 (grid0.coords t) → cond0_1 (grid0.coords t) → cfg0.idle 2 (grid0.coords t) = false := by decide +kernel

/-! ## The buffers the body is called with -/

/-- One staging buffer of the output window, through which its contents are stated. -/
abbrev VO0_2 : View sig .tc .vmem S1x512x128 .f32 := (Memref.whole cc0_stg2_0 : Memref sig .tc .vmem S1x512x128 .f32).view
abbrev ms0_0 (t : Fin cfg0.N) : Memref sig .tc .vmem S5000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x128 .f32 := Memref.whole cc0_scratch0
abbrev VS0_0 : View sig .tc .vmem S512x128 .f32 := scM0_0.view

/-- The other scoped buffers of the core that are no staging buffer of this region (the second kernel's staging
    buffers), each whole at some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant starts from: the accumulator at some contents, the other scoped buffers, the
    generator register. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

end Cert.KernelIdeal.Hand

end
-- ==== Proof.SpectrumRunFirst.lean ====
/-
  The first kernel's body at the FIRST point of a run of five (inner coordinate 0): it stores zeros into the
  accumulator, adds the point's product, and leaves the output block alone. The pieces the accumulator ends with
  are found by running the body.
-/
import proofs.«149052_j48928267436259_2_alg».proof.Proof.SpectrumShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole buffers — the two inputs' at x0, x1, the output's at xi2 (handed back untouched), the accumulator at
    anything — the body runs to the continuation with the accumulator's pieces written. -/
noncomputable def kernelRun0_A (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) :
    Σ' (L2 : List (View.Piece (Elt F) S1x512x128 .f32)), { LS0 : List (View.Piece (Elt F) S512x128 .f32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__spec_kernel i arg2 harg2 arg3 harg3 arg4 harg4 arg5 harg5) K } := by
  refine ⟨[], ?_, fun xi2 E K => ?run⟩
  case run =>
    simp only [cc0__spec_kernel_eq_skeleton]; unfold cc0__spec_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.SpectrumRunMiddle.lean ====
/-
  The first kernel's body at a MIDDLE point of a run of five (inner coordinate 1, 2 or 3): it adds the point's
  product to the accumulator as the point before left it, and leaves the output block alone.
-/
import proofs.«149052_j48928267436259_2_alg».proof.Proof.SpectrumRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole buffers — the inputs' at x0, x1, the output's at xi2 (handed back untouched), the accumulator at xs0 —
    the body runs to the continuation with the accumulator's pieces written. -/
noncomputable def kernelRun0_B (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) :
    Σ' (L2 : List (View.Piece (Elt F) S1x512x128 .f32)), { LS0 : List (View.Piece (Elt F) S512x128 .f32) //
      ∀ (xi2 : Vec F S1x512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__spec_kernel i arg2 harg2 arg3 harg3 arg4 harg4 arg5 harg5) K } := by
  refine ⟨[], ?_, fun xi2 E K => ?run⟩
  case run =>
    simp only [cc0__spec_kernel_eq_skeleton]; unfold cc0__spec_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.SpectrumRunLast.lean ====
/-
  The first kernel's body at the LAST point of a run of five (inner coordinate 4): it adds the point's product to
  the accumulator as the point before left it, and stores the accumulator into the output block.
-/
import proofs.«149052_j48928267436259_2_alg».proof.Proof.SpectrumRunMiddle

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- On whole buffers — the inputs' at x0, x1, the output's at anything, the accumulator at xs0 — the body runs to the
    continuation with the output's and the accumulator's pieces written. -/
noncomputable def kernelRun0_C (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) :
    Σ' (L2 : List (View.Piece (Elt F) S1x512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__spec_kernel i arg2 harg2 arg3 harg3 arg4 harg4 arg5 harg5) K } := by
  refine ⟨?_, ?_, fun E K => ?run⟩
  case run =>
    simp only [cc0__spec_kernel_eq_skeleton]; unfold cc0__spec_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.SpectrumRegion.lean ====
/-
  The first kernel region's proof data. What the accumulator holds after each grid point is a recursion on the point:
  at the first point of a run of five, what the body leaves from zeros; at the others, what the body leaves from the
  accumulator of the point before. The output block after a point is, at the last point of a run, the accumulator
  stored through; elsewhere nothing stored (the window is idle there and not written back). The invariant between
  points holds the accumulator at the recursion's value, the core's other scoped buffers and the generator register.
-/
import proofs.«149052_j48928267436259_2_alg».proof.Proof.SpectrumRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first case's accumulator pieces tile the accumulator. -/
theorem scover0_A_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) (y : S512x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S512x128.size (by sl_kernel_rfl) y

/-- What the first case leaves in the accumulator: its pieces read back. -/
def sout0_A_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) : Vec F S512x128 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) (y : S512x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S512x128.size (by sl_kernel_rfl) y

/-- What a middle case leaves in the accumulator. -/
def sout0_B_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) : Vec F S512x128 .f32 :=
  VS0_0.read (Elt F) (VS0_0.writes (Elt F) VS0_0.junk (kernelRun0_B c i arg2 harg2 arg3 harg3 arg4 harg4 arg5 harg5 hc0 hc1 x0 x1 xs0).2.1)

/-- The last case's output pieces tile the output block. -/
theorem cover0_C_2 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) (y : S1x512x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x512x128.size (by sl_kernel_rfl) y

/-- What the last case leaves in the output block. -/
def out0_C_2 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) : Vec F S1x512x128 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) (y : S512x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S512x128.size (by sl_kernel_rfl) y

/-- What the last case leaves in the accumulator. -/
def sout0_C_0 (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) : Vec F S512x128 .f32 :=
  VS0_0.read (Elt F) (VS0_0.writes (Elt F) VS0_0.junk (kernelRun0_C c i arg2 harg2 arg3 harg3 arg4 harg4 arg5 harg5 hc0 hc1 x0 x1 xs0).2.1)

/-- The output block where the body stores nothing: contents nothing consults. -/
def idleOut : Vec F S1x512x128 .f32 := VO0_2.read (Elt F) VO0_2.junk

/-! ## The accumulator and the output block, point by point -/

/-- THE ACCUMULATION: the accumulator after the body at position n. -/
def accAt0 (c : Dev nD) : (n : ℕ) → n < cfg0.N → Vec F S512x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 5 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩)
    else
      if h1 : (n + 1) % 5 = 4 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (accAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (accAt0 c n (Nat.lt_of_succ_lt hn))

theorem accAt0_A (c : Dev nD) (t : Fin cfg0.N) (h0 : t.val % 5 = 0) (h1 : ¬t.val % 5 = 4) :
    accAt0 V c t.val t.isLt = sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans rfl

theorem accAt0_B (c : Dev nD) (t : Fin cfg0.N) (h0 : ¬t.val % 5 = 0) (h1 : ¬t.val % 5 = 4) :
    accAt0 V c t.val t.isLt = sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 5 = 0) (h1 : t.val % 5 = 4) :
    accAt0 V c t.val t.isLt = sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at position n. -/
def outAt0 (c : Dev nD) (n : ℕ) (hn : n < cfg0.N) : Vec F S1x512x128 .f32 :=
  if h1 : n % 5 = 4 then
    out0_C_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => (fun h => by (try dsimp only at h); omega) ((hcond0_0 ⟨n, hn⟩).mp h)) ((hcond0_1 ⟨n, hn⟩).mpr h1) (iblk0 V c 0 ⟨n, hn⟩) (iblk0 V c 1 ⟨n, hn⟩) (accAt0 V c (n - 1) (Nat.lt_of_le_of_lt (Nat.sub_le _ _) hn))
  else idleOut

theorem outAt0_C (c : Dev nD) (t : Fin cfg0.N) (h0 : ¬t.val % 5 = 0) (h1 : t.val % 5 = 4) :
    outAt0 V c t.val t.isLt = out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (accAt0 V c (t.val - 1) (Nat.lt_of_le_of_lt (Nat.sub_le _ _) t.isLt)) :=
  dif_pos h1

/-! ## The invariant between points -/

def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)) ∗ otherScoped c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: which of the three cases the point is in is decided by its position modulo five; the
    invariant hands the body the accumulator at what the point before left (at anything before the first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 5 = 0
  · have h1 : ¬t.val % 5 = 4 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [accAt0_A V c t h0 h1]
    unfold sout0_A_0; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 5 = 4
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [accAt0_C V c t h0 h1, outAt0_C V c t h0 h1]
      unfold out0_C_2 sout0_C_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [accAt0_B V c t h0 h1]
      unfold sout0_B_0; (try dsimp only)
      rw [PhiS_castSucc V c t, PhiS_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the starting form back: the accumulator's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.LogitsRegion.lean ====
/-
  The second kernel region, at any contents V of the core's buffers on entry: ten grid points, point t taking rows
  5000 t .. 5000 t + 4999 of the eigenvector array and the whole weighted spectrum (fetched once: its block index
  never moves), and storing into its output block the matrix product of the two, clamped below at zero. The body
  keeps nothing between points; its output block is written back at every point.
-/
import proofs.«149052_j48928267436259_2_alg».proof.Proof.Gen.KernelIdeal.Launch
import proofs.«149052_j48928267436259_2_alg».proof.Proof.Gen.KernelIdeal.Skeleton
import proofs.«149052_j48928267436259_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows hold -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eigenvector window's staging buffer holds the point's row block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weighted spectrum's staging buffer holds the whole matrix at every point: fetched at the first, and its block
    index the same ever after. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's three whole-buffer accesses -/

abbrev r1_0 : Rect S5000x512 := Rect.unit (s := S5000x512) ![0, 0] S5000x512.size inb_S5000x512_S5000x512_0_0
abbrev r1_1 : Rect S512x128 := Rect.unit (s := S512x128) ![0, 0] S512x128.size inb_S512x128_S512x128_0_0
abbrev r1_2 : Rect S5000x128 := Rect.unit (s := S5000x128) ![0, 0] S5000x128.size inb_S5000x128_S5000x128_0_0

/-- What the body leaves in the output block: one whole-block store of max(rows · spectrum, 0). -/
def out1_2 (x0 : Vec F S5000x512 .f32) (x1 : Vec F S512x128 .f32) : Vec F S5000x128 .f32 :=
  View.canon [⟨r1_2, k1_pay1 (View.ld x0 r1_0) (View.ld x1 r1_1)⟩]

/-- The one store covers the block. -/
theorem cover1_2 (p0 : Vec F S5000x128 .f32) (y : S5000x128.Idx) :
    ∃ pc ∈ ([⟨r1_2, p0⟩] : List (View.Piece (Elt F) S5000x128 .f32)), y ∈ pc.1.set :=
  View.cover_of_tiled [⟨r1_2, p0⟩] S5000x128.size (by rfl) y

/-! ## The body's triple -/

set_option maxHeartbeats 1000000 in
/-- On whole staging buffers, the two inputs' at x0 and x1 and the output's at anything, the body runs to the
    continuation with the inputs as they were and the output block at out1_2 x0 x1. -/
theorem sound_kernel1 (c : Dev nD) (E : Set ℕ) (i : grid1.Coords) (arg1 : Memref sig .tc .vmem S5000x512 .f32) (harg1 : arg1.IsWhole)
    (arg2 : Memref sig .tc .vmem S512x128 .f32) (harg2 : arg2.IsWhole) (arg3 : Memref sig .tc .vmem S5000x128 .f32) (harg3 : arg3.IsWhole)
    (x0 : Vec F S5000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__logits_kernel i arg1 harg1 arg2 harg2 arg3 harg3) K := by
  simp only [cc1__logits_kernel_eq_skeleton]; unfold cc1__logits_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- After the body at point t: each input's buffer at its block, the output's at out1_2 of the two; the invariant is
    the scoped buffers no window stages and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.TwoRegionRun.lean ====
/-
  The whole program: the accumulating kernel, eight host operations (the two slabs of its output added, the filter
  broadcast along rows, their product), the clamped-product kernel. The contents of every unscoped buffer of a core
  are followed through the three items: at the launch the memory; after a kernel region its arrays at what the
  write-backs leave and everything else unchanged; after the host stretch the operations' fold. Every weakly fair
  execution terminates with every unscoped buffer at the last of these; the three argument arrays read back through
  the fold are the launch memory's.
-/
import proofs.«149052_j48928267436259_2_alg».proof.Proof.SpectrumRegion
import proofs.«149052_j48928267436259_2_alg».proof.Proof.LogitsRegion
import proofs.«149052_j48928267436259_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
/-- The same read at the TensorCore's references: what the first region's proof data take. -/
abbrev Vent0 : (c : Dev nD) → (b : Ref sig .tc) → Buf (Elt F) ((c : Thread nD τ).loc b) := fun c b => W0 m c b
/-- After the first region: its arrays at what the write-backs leave, every other buffer as entered. -/
def W1 (c : Dev nD) : Valuation τ sig (Elt F) :=
  Pipeline.withArrays spec0 c (W0 m c) fun w => (dat0 (Vent0 m) c).arrAt w cfg0.N
theorem W1_arr (c : Dev nD) (w : Fin cfg0.W) :
    W1 m c (Proc.devRef .tc (Pipeline.arrRef spec0 w)) = (dat0 (Vent0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vex0 : (c : Dev nD) → (b : Ref sig .tc) → Buf (Elt F) ((c : Thread nD τ).loc b) := fun c b => W1 m c b
theorem hF0 (c : Dev nD) (w : Fin cfg0.W) : (dat0 (Vent0 m) c).arrAt w cfg0.N = Vex0 m c (Pipeline.arrRef spec0 w) :=
  (W1_arr m c w).symm
theorem hrest0 (c : Dev nD) : ∀ b, b ∉ Finset.univ.image (Pipeline.arrRef spec0) → Vex0 m c b = Vent0 m c b :=
  fun b hb => W1_of_ne m c b fun w e => hb (Finset.mem_image.mpr ⟨w, Finset.mem_univ _, e⟩)

/-- After the host stretch: the second region's entry. -/
abbrev W2 : Dev nD → Valuation τ sig (Elt F) := fun c => StableHlo.after hostOps1 (W1 m c)
abbrev Vent1 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (Vent1 m) c).arrAt w cfg1.N
theorem W3_arr (c : Dev nD) (w : Fin cfg1.W) :
    W3 m c (Proc.devRef .tc (Pipeline.arrRef spec1 w)) = (dat1 (Vent1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vex1 : (c : Dev nD) → (b : Ref sig .tc) → Buf (Elt F) ((c : Thread nD τ).loc b) := fun c b => W3 m c b
theorem hF1 (c : Dev nD) (w : Fin cfg1.W) : (dat1 (Vent1 m) c).arrAt w cfg1.N = Vex1 m c (Pipeline.arrRef spec1 w) :=
  (W3_arr m c w).symm
theorem hrest1 (c : Dev nD) : ∀ b, b ∉ Finset.univ.image (Pipeline.arrRef spec1) → Vex1 m c b = Vent1 m c b :=
  fun b hb => W3_of_ne m c b fun w e => hb (Finset.mem_image.mpr ⟨w, Finset.mem_univ _, e⟩)

/-! ### The arguments end as launched -/

/-- The eigenvector array: an input of both regions, written by no host operation. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Vent1 m) c).arrAt_in 0 rfl _).trans (A_eq1 (Vent1 m) c 0))
    _ = W1 m c (Proc.devRef .tc main_arg0) := StableHlo.after_of_writes_sub hostOps1 _ hostOps1_writes (by decide)
    _ = W0 m c (Proc.devRef .tc main_arg0) := (W1_arr m c 0).trans (((dat0 (Vent0 m) c).arrAt_in 0 rfl _).trans (A_eq0 (Vent0 m) c 0))
    _ = m ((c : Thread nD τ).loc main_arg0) := rfl

/-- The filter: read by the host stretch only. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

/-- The feature array: an input of the first region. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (Vent0 m) c).arrAt_in 1 rfl _).trans (A_eq0 (Vent0 m) c 1))
    _ = m ((c : Thread nD τ).loc main_arg2) := rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vent0 m) c
  | ⟨1, _⟩ => fun c => dat1 (Vent1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The accumulating region: entered from every unscoped buffer at the launch contents, left at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = (dat0 (Vent0 m) c).Φ (Fin.last cfg0.N) from rfl]
    have h := hout0 (Vent0 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (Vex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The clamped-product region: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vex1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three items, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and every
    unscoped buffer of every core ends at W3. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The result array ends at what the second region's write-backs leave. -/
theorem W3_main_v9 (c : Dev nD) : W3 m c (Proc.devRef .tc main_v9) = (dat1 (Vent1 m) c).arrAt 2 cfg1.N := W3_arr m c 2

/-- THE RUN, read at the result and the arguments. -/
theorem run_result : θ_run defs (onTc (τ := τ) (main (F := F))) ⟨m, fun _ => 0, ρ⟩ (fun r => ∀ c : Dev nD,
      r.2.mem ((c.tc : Thread nD τ).loc main_v9) = (dat1 (Vent1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v9 (by decide))).trans (W3_main_v9 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.SpectralSpec.lean ====
/-
  The function both programs compute, index by index over the extended reals.

  U is the 50000 x 512 eigenvector array, g the 512 filter coefficients, x the 50000 x 128 feature array.
  The spectrum is S(k, f) = sum over all rows r of U(r, k) * x(r, f); the result at (n, f) is the larger of
  sum over k of U(n, k) * (g(k) * S(k, f)) and the float zero. The reference sums the 50000 rows in one sum;
  the kernel sums them in ten consecutive blocks of 5000 rows, the first five blocks into one accumulator and
  the last five into another, each accumulator started from zero, and adds the two. Addition of extended reals
  is commutative and associative with zero its unit, so the two groupings agree with no finiteness assumption.
-/
import Idealize.ShloMosaic.PureOps.Ideal
import Idealize.ShloMosaic.Lib.ValueIdx
import proofs.«149052_j48928267436259_2_alg».proof.Proof.LibERealSums

noncomputable section

namespace Cert.SpectralSpec

open Idealize.ShloMosaic Idealize.ShloMosaic.ValueIdx

abbrev SU : Shape := ⟨2, ![50000, 512]⟩
abbrev Sg : Shape := ⟨1, ![512]⟩
abbrev SX : Shape := ⟨2, ![50000, 128]⟩

variable (U : SU.Idx → EReal) (g : Sg.Idx → EReal) (x : SX.Idx → EReal)

/-- S(k, f): column k of U against column f of x, over all 50000 rows. -/
def spectrum (k : Fin 512) (f : Fin 128) : EReal := ∑ r : Fin 50000, U (ix2 r k) * x (ix2 r f)

/-- The value before the clamp. -/
def logit (n : Fin 50000) (f : Fin 128) : EReal := ∑ k : Fin 512, U (ix2 n k) * (g (ix1 k) * spectrum U x k f)

/-- THE RESULT, index by index. -/
def G : SX.Idx → EReal := fun j => max (logit U g x (j 0) (j 1)) (Ideal.ofBits .f32 0x00000000#32)

/-- Row r of block t of 5000 rows. -/
def row (t : Fin 10) (r : Fin 5000) : Fin 50000 := ⟨5000 * t.val + r.val, by have := t.isLt; have := r.isLt; omega⟩

/-- Block t's share of S(k, f): its 5000 rows. -/
def part (k : Fin 512) (f : Fin 128) (t : Fin 10) : EReal := ∑ r : Fin 5000, U (ix2 (row t r) k) * x (ix2 (row t r) f)

/-- The same with the block a natural number (zero past the tenth block). -/
def partN (k : Fin 512) (f : Fin 128) (n : ℕ) : EReal := if h : n < 10 then part U x k f ⟨n, h⟩ else 0

/-- The accumulator after block n, as the kernel forms it: restarted from zero at blocks 0 and 5. -/
def accN (k : Fin 512) (f : Fin 128) : ℕ → EReal
  | 0 => 0 + partN U x k f 0
  | n + 1 => if (n + 1) % 5 = 0 then 0 + partN U x k f (n + 1) else accN k f n + partN U x k f (n + 1)

/-- The spectrum is the sum of its ten blocks. -/
theorem spectrum_eq_blocks (k : Fin 512) (f : Fin 128) : spectrum U x k f = ∑ t : Fin 10, part U x k f t := by
  unfold spectrum part
  exact Cert.LibERealSums.sum_fin_blocks (m := 10) (n := 5000) (N := 50000) rfl row (fun _ _ => rfl) _

theorem acc_four (k : Fin 512) (f : Fin 128) : accN U x k f 4
    = 0 + partN U x k f 0 + partN U x k f 1 + partN U x k f 2 + partN U x k f 3 + partN U x k f 4 := rfl

theorem acc_nine (k : Fin 512) (f : Fin 128) : accN U x k f 9
    = 0 + partN U x k f 5 + partN U x k f 6 + partN U x k f 7 + partN U x k f 8 + partN U x k f 9 := rfl

/-- The two accumulators, after blocks 4 and 9, add up to the spectrum. -/
theorem acc_add (k : Fin 512) (f : Fin 128) : accN U x k f 4 + accN U x k f 9 = spectrum U x k f := by
  have hsum : ∑ t : Fin 10, part U x k f t = ∑ n ∈ Finset.range 10, partN U x k f n := by
    rw [← Fin.sum_univ_eq_sum_range (fun n => partN U x k f n) 10]
    refine Finset.sum_congr rfl fun t _ => ?_
    unfold partN; rw [dif_pos t.isLt]
  rw [spectrum_eq_blocks, hsum, acc_four, acc_nine]
  simp only [Finset.sum_range_succ, Finset.sum_range_zero, zero_add]
  ac_rfl

end Cert.SpectralSpec

end
-- ==== Proof.SpectrumValue.lean ====
/-
  What the accumulating kernel computes, at the ideal instance. One body execution turns the accumulator a into
  a + (rows of U) transposed times (rows of x): at entry (k, f), a(k, f) + sum over the block's 5000 rows q of
  U(q, k) * x(q, f). Point t's blocks are rows 5000 t .. 5000 t + 4999 of the two argument arrays, so by induction on
  the point the accumulator after point t is the specification's accN t; the output array's slab c is the
  accumulator after the last point of run c, accN (5 c + 4).
-/
import proofs.«149052_j48928267436259_2_alg».proof.Proof.SpectrumRegion
import proofs.«149052_j48928267436259_2_alg».proof.Proof.SpectralSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx Cert.SpectralSpec

variable {F : FTy → Type} [FloatOps F]

/-! ## What each case's pieces read back as -/

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a run: the accumulator ends at one step from the stored zeros. -/
theorem sout0_A_eq (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : cond0_0 i) (hc1 : ¬cond0_1 i)
    (x0 : Vec F S5000x512 .f32) (x1 : Vec F S5000x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero hz2]
  simp only [View.readAt_eq_ld, harg2.read_unread, harg3.read_unread, View.ld_unit_zero (S := S5000x512) hz2, View.ld_unit_zero (S := S5000x128) hz2, View.readCov_unit_zero (S := S512x128) _ hz2]

/-- Middle point: one step from the accumulator handed in. -/
theorem sout0_B_eq (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : ¬cond0_1 i)
    (x0 : Vec F S5000x512 .f32) (x1 : Vec F S5000x128 .f32) (xs0 : Vec F S512x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S5000x512) hz2, View.ld_unit_zero (S := S5000x128) hz2, View.ld_unit_zero (S := S512x128) hz2]

/-- Last point: the same step, -/
theorem sout0_C_eq (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S5000x512) hz2, View.ld_unit_zero (S := S5000x128) hz2, View.ld_unit_zero (S := S512x128) hz2]

/-- and the output block holds the new accumulator recast with a leading unit axis. -/
theorem out0_C_eq (c : Dev nD) (i : grid0.Coords) (arg2 : Memref sig .tc .vmem S5000x512 .f32) (harg2 : arg2.IsWhole) (arg3 : Memref sig .tc .vmem S5000x128 .f32) (harg3 : arg3.IsWhole) (arg4 : Memref sig .tc .vmem S1x512x128 .f32) (harg4 : arg4.IsWhole) (arg5 : Memref sig .tc .vmem S512x128 .f32) (harg5 : arg5.IsWhole) (hc0 : ¬cond0_0 i) (hc1 : cond0_1 i)
    (x0 : Vec F S5000x512 .f32) (x1 : Vec F S5000x128 .f32) (xs0 : Vec F S512x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readCov_unit_zero (S := S512x128) _ hz2, View.readAt_eq_ld, harg2.read_unread, harg3.read_unread, harg5.read_unread, View.ld_unit_zero (S := S5000x512) hz2, View.ld_unit_zero (S := S5000x128) hz2, View.ld_unit_zero (S := S512x128) hz2]

/-! ## The body's arithmetic at an entry, over the extended reals -/

/-- The first kernel's contraction: rows of the left operand against rows of the right. -/
abbrev DT : DotDims S5000x512 S5000x128 S512x128 := dot_S5000x512_S5000x128_S512x128_0_0_1_1_n_n

theorem lhsT_0 (j : S512x128.Idx) (q : DT.contr.Idx) : (DT.lhsIdx j q 0).val = (q ⟨0, by decide⟩).val :=
  DT.lhsIdx_val_of_single rfl j q
theorem lhsT_1 (j : S512x128.Idx) (q : DT.contr.Idx) : (DT.lhsIdx j q 1).val = (j 0).val := by
  unfold DotDims.lhsIdx
  rw [dif_neg (show ¬(1 : Fin S5000x512.rank) ∈ DT.lhsBatch by decide), dif_pos (show (1 : Fin S5000x512.rank) ∈ DT.lhsNonContracting by decide)]
  rfl
theorem rhsT_0 (j : S512x128.Idx) (q : DT.contr.Idx) : (DT.rhsIdx j q 0).val = (q ⟨0, by decide⟩).val :=
  DT.rhsIdx_val_of_single rfl j q
theorem rhsT_1 (j : S512x128.Idx) (q : DT.contr.Idx) : (DT.rhsIdx j q 1).val = (j 1).val := by
  unfold DotDims.rhsIdx
  rw [dif_neg (show ¬(1 : Fin S5000x128.rank) ∈ DT.rhsBatch by decide), dif_pos (show (1 : Fin S5000x128.rank) ∈ DT.rhsNonContracting by decide)]
  rfl

/-- Into the zero accumulator, the transposed product at (k, f) is the sum over the 5000 rows. -/
theorem matmulT_apply (l : FVec Ideal S5000x512 .f32) (r : FVec Ideal S5000x128 .f32) (k : Fin 512) (f : Fin 128) :
    FloatOps.matmul DT none l r (constant (F := Ideal) S512x128 .f32 0x00000000#32) (ix2 k f)
      = ∑ q : Fin 5000, l (ix2 q k) * r (ix2 q f) := by
  rw [Ideal.matmul_constant_zero_apply, ← Equiv.sum_comp (contrEquiv1 DT 5000 rfl rfl).symm]
  refine Finset.sum_congr rfl fun q _ => ?_
  have hk := contrEquiv1_symm_val DT 5000 rfl rfl q
  have el : DT.lhsIdx (ix2 k f) ((contrEquiv1 DT 5000 rfl rfl).symm q) = ix2 q k := funext fun a => Fin.ext (by
    match a with
    | ⟨0, _⟩ => exact (lhsT_0 _ _).trans hk
    | ⟨1, _⟩ => exact lhsT_1 _ _)
  have er : DT.rhsIdx (ix2 k f) ((contrEquiv1 DT 5000 rfl rfl).symm q) = ix2 q f := funext fun a => Fin.ext (by
    match a with
    | ⟨0, _⟩ => exact (rhsT_0 _ _).trans hk
    | ⟨1, _⟩ => exact rhsT_1 _ _)
  rw [el, er]

/-- One step of the accumulation at an entry. -/
theorem pay2_apply (x0 : Vec Ideal S5000x512 .f32) (x1 : Vec Ideal S5000x128 .f32) (xs0 : Vec Ideal S512x128 .f32)
    (k : Fin 512) (f : Fin 128) :
    k0_pay2 (F := Ideal) x0 x1 xs0 (ix2 k f) = xs0 (ix2 k f) + ∑ q : Fin 5000, x0 (ix2 q k) * x1 (ix2 q f) := by
  unfold k0_pay2
  rw [shapeCast_self]
  refine (addf_apply _ _ _).trans ?_
  exact congrArg (fun z => xs0 (ix2 k f) + z) (matmulT_apply x0 x1 k f)

/-- The stored zeros are zero. -/
theorem pay1_apply (k : Fin 512) (f : Fin 128) : k0_pay1 (F := Ideal) (ix2 k f) = 0 := by
  unfold k0_pay1
  rw [shapeCast_self]
  exact Ideal.ofBits_zero_f32

/-- The recast with a leading unit axis reads the matrix entry. -/
theorem pay3_apply (v : Vec Ideal S512x128 .f32) (u : Fin 1) (k : Fin 512) (f : Fin 128) :
    k0_pay3 (F := Ideal) v (ix3 u k f) = v (ix2 k f) := by
  unfold k0_pay3
  exact shapeCast_ab_1ab_apply v _ u k f

/-! ## The blocks are rows of the argument arrays -/

variable (VI : (c : Dev nD) → (b : Ref sig .tc) → Buf (Elt Ideal) ((c : Thread nD τ).loc b))

/-- The printed index maps over the grid: point t takes row block t of both inputs and slab t / 5 of the output. -/
theorem idx0_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 5 ∧ win0_2.index t (1 : Fin 3) = 0 ∧ win0_2.index t (2 : Fin 3) = 0 :=
  (by decide +kernel : ∀ t : Fin grid0.N, _)

theorem lt10 (t : Fin cfg0.N) : t.val < 10 := lt_of_lt_of_eq t.isLt (show cfg0.N = 10 from N_0)

theorem iblk0_0_apply (c : Dev nD) (t : Fin cfg0.N) (q : Fin 5000) (k : Fin 512) :
    (iblk0 VI c 0 t : Vec Ideal S5000x512 .f32) (ix2 q k) = VI c main_arg0 (ix2 (row ⟨t.val, lt10 t⟩ q) k) := by
  unfold iblk0
  show VI c main_arg0 (((cfg0.win 0).blk t).view.emb (ix2 q k)) = _
  refine congrArg (VI c main_arg0) (funext fun a => Fin.ext ?_)
  obtain ⟨e0, e1, -⟩ := idx0_facts t
  match a with
  | ⟨0, _⟩ => show win0_0.index t (0 : Fin 2) * 5000 + 1 * q.val = 5000 * t.val + q.val; omega
  | ⟨1, _⟩ => show win0_0.index t (1 : Fin 2) * 512 + 1 * k.val = k.val; omega

theorem iblk0_1_apply (c : Dev nD) (t : Fin cfg0.N) (q : Fin 5000) (f : Fin 128) :
    (iblk0 VI c 1 t : Vec Ideal S5000x128 .f32) (ix2 q f) = VI c main_arg2 (ix2 (row ⟨t.val, lt10 t⟩ q) f) := by
  unfold iblk0
  show VI c main_arg2 (((cfg0.win 1).blk t).view.emb (ix2 q f)) = _
  refine congrArg (VI c main_arg2) (funext fun a => Fin.ext ?_)
  obtain ⟨-, -, e0, e1, -⟩ := idx0_facts t
  match a with
  | ⟨0, _⟩ => show win0_1.index t (0 : Fin 2) * 5000 + 1 * q.val = 5000 * t.val + q.val; omega
  | ⟨1, _⟩ => show win0_1.index t (1 : Fin 2) * 128 + 1 * f.val = f.val; omega

/-- Point t's product at (k, f) is block t's share of the spectrum. -/
theorem blockSum (c : Dev nD) (t : Fin cfg0.N) (k : Fin 512) (f : Fin 128)
    (x0 : Vec Ideal S5000x512 .f32) (x1 : Vec Ideal S5000x128 .f32) (h0 : x0 = iblk0 VI c 0 t) (h1 : x1 = iblk0 VI c 1 t) :
    ∑ q : Fin 5000, x0 (ix2 q k) * x1 (ix2 q f) = partN (VI c main_arg0) (VI c main_arg2) k f t.val := by
  subst h0 h1
  unfold partN; rw [dif_pos (lt10 t)]; unfold part
  refine Finset.sum_congr rfl fun q _ => ?_
  rw [iblk0_0_apply, iblk0_1_apply]

/-! ## The accumulator after every point -/

theorem acc_eq (c : Dev nD) : ∀ (n : ℕ) (hn : n < cfg0.N) (k : Fin 512) (f : Fin 128),
    accAt0 VI c n hn (ix2 k f) = accN (VI c main_arg0) (VI c main_arg2) k f n
  | 0, hn, k, f => by
    refine (congrFun (accAt0_A VI c ⟨0, hn⟩ (Nat.zero_mod _) (by show ¬0 % 5 = 4; decide)) (ix2 k f)).trans ?_
    rw [sout0_A_eq, pay2_apply, pay1_apply, blockSum VI c ⟨0, hn⟩ k f _ _ rfl rfl]
    rfl
  | n + 1, hn, k, f => by
    by_cases h0 : (n + 1) % 5 = 0
    · have h1 : ¬(n + 1) % 5 = 4 := by omega
      refine (congrFun (accAt0_A VI c ⟨n + 1, hn⟩ h0 h1) (ix2 k f)).trans ?_
      rw [sout0_A_eq, pay2_apply, pay1_apply, blockSum VI c ⟨n + 1, hn⟩ k f _ _ rfl rfl]
      simp only [accN, if_pos h0]
    · by_cases h1 : (n + 1) % 5 = 4
      · refine (congrFun (accAt0_C VI c ⟨n + 1, hn⟩ h0 h1) (ix2 k f)).trans ?_
        rw [sout0_C_eq, pay2_apply, blockSum VI c ⟨n + 1, hn⟩ k f _ _ rfl rfl]
        simp only [accN, if_neg h0]
        exact congrArg (fun z => z + _) (acc_eq c n _ k f)
      · refine (congrFun (accAt0_B VI c ⟨n + 1, hn⟩ h0 h1) (ix2 k f)).trans ?_
        rw [sout0_B_eq, pay2_apply, blockSum VI c ⟨n + 1, hn⟩ k f _ _ rfl rfl]
        simp only [accN, if_neg h0]
        exact congrArg (fun z => z + _) (acc_eq c n _ k f)

/-! ## The output array after the region -/

/-- Slab c' of the output: the accumulator after the last point of run c'. -/
def slab (U : SU.Idx → EReal) (x : SX.Idx → EReal) : S2x512x128.Idx → EReal :=
  fun j => accN U x (j 1) (j 2) (5 * (j 0).val + 4)

theorem flushed0_eq (c : Dev nD) (t : Fin cfg0.N) (hf : (cfg0.win 2).flush t = true) :
    (dat0 VI c).flushed 2 t = ((cfg0.win 2).blk t).view.read (Elt Ideal) (slab (VI c main_arg0) (VI c main_arg2)) := by
  have h1 : t.val % 5 = 4 := (flush0_2 t).mp hf
  have h0 : ¬t.val % 5 = 0 := by omega
  have ht := lt10 t
  show (cfg0.win 2).cut (grid0.coords t) ((dat0 VI c).after 2 t) = _
  rw [after0_2, outAt0_C VI c t h0 h1, out0_C_eq]
  have hacc : k0_pay2 (F := Ideal) (iblk0 VI c 0 t) (iblk0 VI c 1 t) (accAt0 VI c (t.val - 1) (Nat.lt_of_le_of_lt (Nat.sub_le _ _) t.isLt))
      = accAt0 VI c t.val t.isLt := ((accAt0_C VI c t h0 h1).trans (sout0_C_eq _ _ _ _ _ _ _ _ _ _ _ _ _ _ _)).symm
  rw [hacc]
  funext y
  obtain ⟨u, k, f, rfl⟩ : ∃ (u : Fin 1) (k : Fin 512) (f : Fin 128), y = ix3 u k f := ⟨y 0, y 1, y 2, eq_ix3 y⟩
  show k0_pay3 (F := Ideal) (accAt0 VI c t.val t.isLt) (ix3 u k f) = slab (VI c main_arg0) (VI c main_arg2) (((cfg0.win 2).blk t).view.emb (ix3 u k f))
  rw [pay3_apply, acc_eq]
  obtain ⟨-, -, -, -, e0, e1, e2⟩ := idx0_facts t
  have hu : u.val = 0 := by omega
  have e : ((cfg0.win 2).blk t).view.emb (ix3 u k f) = ix3 (⟨t.val / 5, by omega⟩ : Fin 2) k f := funext fun a => Fin.ext (by
    match a with
    | ⟨0, _⟩ => show win0_2.index t (0 : Fin 3) * 1 + 1 * u.val = t.val / 5; omega
    | ⟨1, _⟩ => show win0_2.index t (1 : Fin 3) * 512 + 1 * k.val = k.val; omega
    | ⟨2, _⟩ => show win0_2.index t (2 : Fin 3) * 128 + 1 * f.val = f.val; omega)
  rw [e]
  show _ = accN (VI c main_arg0) (VI c main_arg2) k f (5 * (t.val / 5) + 4)
  exact congrArg (accN (VI c main_arg0) (VI c main_arg2) k f) (by omega)

theorem mem_blk0 (t : Fin cfg0.N) (i : S2x512x128.Idx) :
    i ∈ ((cfg0.win 2).blk t).view.set ↔ ∀ a : Fin 3, win0_2.index t a * S1x512x128.size a ≤ (i a).val ∧ (i a).val < win0_2.index t a * S1x512x128.size a + S1x512x128.size a := by
  show i ∈ ((View.whole main_v0).slice (win0_2.rect t)).set ↔ _
  rw [View.set_slice_whole, Rect.mem_set_unit]
  exact Iff.rfl

theorem cover0 (i : S2x512x128.Idx) : ∃ t : Fin cfg0.N, (cfg0.win 2).flush t = true ∧ i ∈ ((cfg0.win 2).blk t).view.set := by
  have hi0 : (i 0).val < 2 := (i 0).isLt
  have hi1 : (i 1).val < 512 := (i 1).isLt
  have hi2 : (i 2).val < 128 := (i 2).isLt
  have hN : cfg0.N = 10 := N_0
  have hN' : grid0.N = 10 := N_0
  refine ⟨⟨5 * (i 0).val + 4, by omega⟩, (flush0_2 _).mpr (by show (5 * (i 0).val + 4) % 5 = 4; omega), ?_⟩
  rw [mem_blk0]
  obtain ⟨-, -, -, -, e0, e1, e2⟩ := idx0_facts ⟨5 * (i 0).val + 4, by omega⟩
  have e0' : win0_2.index ⟨5 * (i 0).val + 4, by omega⟩ (0 : Fin 3) = (i 0).val := by rw [e0]; show (5 * (i 0).val + 4) / 5 = (i 0).val; omega
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 512 ≤ (i 1).val ∧ (i 1).val < win0_2.index _ (1 : Fin 3) * 512 + 512; omega
  | ⟨2, _⟩ => show win0_2.index _ (2 : Fin 3) * 128 ≤ (i 2).val ∧ (i 2).val < win0_2.index _ (2 : Fin 3) * 128 + 128; omega

/-- THE OUTPUT ARRAY of the first region: slab c' holds the accumulator after block 5 c' + 4. -/
theorem final0 (c : Dev nD) : (dat0 VI c).arrAt 2 cfg0.N = slab (VI c main_arg0) (VI c main_arg2) :=
  (dat0 VI c).arrAt_eq_of_cover 2 _ (fun t hf => flushed0_eq VI c t hf) cover0

end Cert.KernelIdeal.Hand

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LogitsValue.lean ====
/-
  What the second kernel computes, at the ideal instance: block t of its output, at row p and column f, is the larger
  of sum over k of U(5000 t + p, k) * W(k, f) and the float zero, W the weighted spectrum the region finds in its
  second operand. The ten blocks tile the 50000 rows, so the whole output array is that function of U and W.
-/
import proofs.«149052_j48928267436259_2_alg».proof.Proof.LogitsRegion
import proofs.«149052_j48928267436259_2_alg».proof.Proof.SpectralSpec
import proofs.«149052_j48928267436259_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx Cert.SpectralSpec

theorem zeroOff2 : (![0, 0] : Fin 2 → Nat) = fun _ => 0 := funext fun a => by fin_cases a <;> rfl

/-- The second kernel's contraction: columns of the left operand against rows of the right. -/
abbrev DL : DotDims S5000x512 S512x128 S5000x128 := dot_S5000x512_S512x128_S5000x128_1_0_0_1_n_n

/-- The body's output block at (p, f). -/
theorem out1_2_apply (x0 : Vec Ideal S5000x512 .f32) (x1 : Vec Ideal S512x128 .f32) (p : Fin 5000) (f : Fin 128) :
    out1_2 (F := Ideal) x0 x1 (ix2 p f) = max (∑ k : Fin 512, x0 (ix2 p k) * x1 (ix2 k f)) (Ideal.ofBits .f32 0x00000000#32) := by
  unfold out1_2
  rw [View.canon_unit_zero zeroOff2]
  simp only [View.ld_unit_zero (S := S5000x512) zeroOff2, View.ld_unit_zero (S := S512x128) zeroOff2]
  unfold k1_pay1
  rw [shapeCast_self]
  refine (maximumf_apply _ _ _).trans ?_
  exact congrArg (fun z => max z (Ideal.ofBits .f32 0x00000000#32)) (Cert.LibPlainMatmul.matmul_zero_apply DL rfl rfl rfl rfl rfl rfl none x0 x1 p f)

variable (VI : (c : Dev nD) → (b : Ref sig .tc) → Buf (Elt Ideal) ((c : Thread nD τ).loc b))

/-- The printed index maps over the grid: point t takes row block t of U and of the output, and the whole of W. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt10' (t : Fin cfg1.N) : t.val < 10 := lt_of_lt_of_eq t.isLt (show cfg1.N = 10 from N_1)

theorem iblk1_0_apply (c : Dev nD) (t : Fin cfg1.N) (p : Fin 5000) (k : Fin 512) :
    (iblk1 VI c 0 t : Vec Ideal S5000x512 .f32) (ix2 p k) = VI c main_arg0 (ix2 (row ⟨t.val, lt10' t⟩ p) k) := by
  unfold iblk1
  show VI c main_arg0 (((cfg1.win 0).blk t).view.emb (ix2 p k)) = _
  refine congrArg (VI c main_arg0) (funext fun a => Fin.ext ?_)
  obtain ⟨e0, e1, -⟩ := idx1_facts t
  match a with
  | ⟨0, _⟩ => show win1_0.index t (0 : Fin 2) * 5000 + 1 * p.val = 5000 * t.val + p.val; omega
  | ⟨1, _⟩ => show win1_0.index t (1 : Fin 2) * 512 + 1 * k.val = k.val; omega

theorem iblk1_1_apply (c : Dev nD) (t : Fin cfg1.N) (k : Fin 512) (f : Fin 128) :
    (iblk1 VI c 1 t : Vec Ideal S512x128 .f32) (ix2 k f) = VI c main_v8 (ix2 k f) := by
  unfold iblk1
  show VI c main_v8 (((cfg1.win 1).blk t).view.emb (ix2 k f)) = _
  refine congrArg (VI c main_v8) (funext fun a => Fin.ext ?_)
  obtain ⟨-, -, e0, e1, -⟩ := idx1_facts t
  match a with
  | ⟨0, _⟩ => show win1_1.index t (0 : Fin 2) * 512 + 1 * k.val = k.val; omega
  | ⟨1, _⟩ => show win1_1.index t (1 : Fin 2) * 128 + 1 * f.val = f.val; omega

/-- Rows of U against the matrix W, clamped below at zero. -/
def clamped (U : SU.Idx → EReal) (W : S512x128.Idx → EReal) : SX.Idx → EReal :=
  fun j => max (∑ k : Fin 512, U (ix2 (j 0) k) * W (ix2 k (j 1))) (Ideal.ofBits .f32 0x00000000#32)

theorem flushed1_eq (c : Dev nD) (t : Fin cfg1.N) :
    (dat1 VI c).flushed 2 t = ((cfg1.win 2).blk t).view.read (Elt Ideal) (clamped (VI c main_arg0) (VI c main_v8)) := by
  show (cfg1.win 2).cut (grid1.coords t) ((dat1 VI c).after 2 t) = _
  rw [after1_2]
  funext y
  obtain ⟨p, f, rfl⟩ : ∃ (p : Fin 5000) (f : Fin 128), y = ix2 p f := ⟨y 0, y 1, eq_ix2 y⟩
  show out1_2 (F := Ideal) (iblk1 VI c 0 t) (iblk1 VI c 1 t) (ix2 p f) = clamped (VI c main_arg0) (VI c main_v8) (((cfg1.win 2).blk t).view.emb (ix2 p f))
  rw [out1_2_apply]
  obtain ⟨-, -, -, -, e0, e1⟩ := idx1_facts t
  have e : ((cfg1.win 2).blk t).view.emb (ix2 p f) = ix2 (row ⟨t.val, lt10' t⟩ p) f := funext fun a => Fin.ext (by
    match a with
    | ⟨0, _⟩ => show win1_2.index t (0 : Fin 2) * 5000 + 1 * p.val = 5000 * t.val + p.val; omega
    | ⟨1, _⟩ => show win1_2.index t (1 : Fin 2) * 128 + 1 * f.val = f.val; omega)
  rw [e]
  refine congrArg (fun z => max z (Ideal.ofBits .f32 0x00000000#32)) (Finset.sum_congr rfl fun k _ => ?_)
  rw [iblk1_0_apply, iblk1_1_apply]

theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v9).slice (win1_2.rect t)).set ↔ _
  rw [View.set_slice_whole, Rect.mem_set_unit]
  exact Iff.rfl

theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have hN' : grid1.N = 10 := N_1
  refine ⟨⟨(i 0).val / 5000, by omega⟩, flush1_2 _, ?_⟩
  rw [mem_blk1]
  obtain ⟨-, -, -, -, e0, e1⟩ := idx1_facts ⟨(i 0).val / 5000, by omega⟩
  have e0' : win1_2.index ⟨(i 0).val / 5000, by omega⟩ (0 : Fin 2) = (i 0).val / 5000 := e0
  intro a
  match a with
  | ⟨0, _⟩ => show win1_2.index _ (0 : Fin 2) * 5000 ≤ (i 0).val ∧ (i 0).val < win1_2.index _ (0 : Fin 2) * 5000 + 5000; omega
  | ⟨1, _⟩ => show win1_2.index _ (1 : Fin 2) * 128 ≤ (i 1).val ∧ (i 1).val < win1_2.index _ (1 : Fin 2) * 128 + 128; omega

/-- THE OUTPUT ARRAY of the second region. -/
theorem final1 (c : Dev nD) : (dat1 VI c).arrAt 2 cfg1.N = clamped (VI c main_arg0) (VI c main_v8) :=
  (dat1 VI c).arrAt_eq_of_cover 2 _ (fun t _ => flushed1_eq VI c t) cover1

end Cert.KernelIdeal.Hand

end
-- ==== Proof.KernelValue.lean ====
/-
  The kernel program's result is the specification. Between the two kernel regions eight host operations form the
  weighted spectrum W(k, f) = g(k) * (slab 0 (k, f) + slab 1 (k, f)) of the first region's two output slabs; those
  slabs are the accumulators after blocks 4 and 9, which add up to the spectrum S(k, f) — a regrouping of one sum of
  extended reals, needing only that addition is commutative and associative with unit zero. The second region then
  computes max( sum over k of U(n, k) * W(k, f), 0 ), the reference's value.
-/
import proofs.«149052_j48928267436259_2_alg».proof.Proof.TwoRegionRun
import proofs.«149052_j48928267436259_2_alg».proof.Proof.SpectrumValue
import proofs.«149052_j48928267436259_2_alg».proof.Proof.LogitsValue
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx Cert.SpectralSpec

open Idealize.ShloMosaic.StableHlo

/-- The host stretch between the regions, as one function of the filter and the two-slab array. -/
def weighted (g : FVec Ideal S512 .f32) (P : FVec Ideal S2x512x128 .f32) : FVec Ideal S512x128 .f32 :=
  mulf (broadcastInDim S512x128 ![0, 1] bcast_S512x1_S512x128_0_1 (broadcastInDim S512x1 ![0] bcast_S512_S512x1_0 g))
    (addf (shapeCast S512x128 (extractStridedSlice S1x512x128 ![0, 0, 0] P slices_S2x512x128_S1x512x128_0_0_0) shapeCasts_S1x512x128_S512x128)
      (shapeCast S512x128 (extractStridedSlice S1x512x128 ![1, 0, 0] P slices_S2x512x128_S1x512x128_1_0_0) shapeCasts_S1x512x128_S512x128))

/-- The filter broadcast along rows reads g(k). -/
theorem filter_apply (g : FVec Ideal S512 .f32) (k : Fin 512) (f : Fin 128) :
    broadcastInDim S512x128 ![0, 1] bcast_S512x1_S512x128_0_1 (broadcastInDim S512x1 ![0] bcast_S512_S512x1_0 g) (ix2 k f) = g (ix1 k) := by
  refine (broadcastInDim_apply _ bcast_S512x1_S512x128_0_1 _ (ix2 k f) (ix2 k (0 : Fin 1)) (fun a => match a with
    | ⟨0, _⟩ => by show k.val = if (512 : Nat) = 1 then 0 else k.val; rw [if_neg (by decide)]
    | ⟨1, _⟩ => by show 0 = if (1 : Nat) = 1 then 0 else f.val; rw [if_pos rfl])).trans ?_
  exact broadcastInDim_apply _ bcast_S512_S512x1_0 g (ix2 k (0 : Fin 1)) (ix1 k) (fun a => match a with
    | ⟨0, _⟩ => by show k.val = if (512 : Nat) = 1 then 0 else k.val; rw [if_neg (by decide)])

/-- Slab 0 recast as a matrix. -/
theorem slab0_apply (P : FVec Ideal S2x512x128 .f32) (k : Fin 512) (f : Fin 128) :
    shapeCast S512x128 (extractStridedSlice S1x512x128 ![0, 0, 0] P slices_S2x512x128_S1x512x128_0_0_0) shapeCasts_S1x512x128_S512x128 (ix2 k f)
      = P (ix3 (0 : Fin 2) k f) := by
  refine (shapeCast_1ab_ab_apply _ _ k f).trans ?_
  exact extractStridedSlice_apply _ P _ (ix3 (0 : Fin 1) k f) (ix3 (0 : Fin 2) k f) (fun a => match a with
    | ⟨0, _⟩ => rfl
    | ⟨1, _⟩ => by show k.val = 0 + k.val; omega
    | ⟨2, _⟩ => by show f.val = 0 + f.val; omega)

/-- Slab 1 recast as a matrix. -/
theorem slab1_apply (P : FVec Ideal S2x512x128 .f32) (k : Fin 512) (f : Fin 128) :
    shapeCast S512x128 (extractStridedSlice S1x512x128 ![1, 0, 0] P slices_S2x512x128_S1x512x128_1_0_0) shapeCasts_S1x512x128_S512x128 (ix2 k f)
      = P (ix3 (1 : Fin 2) k f) := by
  refine (shapeCast_1ab_ab_apply _ _ k f).trans ?_
  exact extractStridedSlice_apply _ P _ (ix3 (0 : Fin 1) k f) (ix3 (1 : Fin 2) k f) (fun a => match a with
    | ⟨0, _⟩ => rfl
    | ⟨1, _⟩ => by show k.val = 0 + k.val; omega
    | ⟨2, _⟩ => by show f.val = 0 + f.val; omega)

/-- The weighted spectrum at an entry. -/
theorem weighted_apply (g : FVec Ideal S512 .f32) (P : FVec Ideal S2x512x128 .f32) (k : Fin 512) (f : Fin 128) :
    weighted g P (ix2 k f) = g (ix1 k) * (P (ix3 (0 : Fin 2) k f) + P (ix3 (1 : Fin 2) k f)) := by
  unfold weighted
  refine (mulf_apply _ _ _).trans ?_
  rw [filter_apply]
  refine congrArg (fun z => g (ix1 k) * z) ?_
  refine (addf_apply _ _ _).trans ?_
  rw [slab0_apply, slab1_apply]

variable (m : (ℓ : Loc nD τ sig) → Buf (Elt Ideal) ℓ)

/-- The second region finds the weighted spectrum of the launch filter and the first region's output array. -/
theorem entry_v8 (c : Dev nD) : Vent1 m c main_v8
    = weighted (m ((c : Thread nD τ).loc main_arg1)) (slab (m ((c : Thread nD τ).loc main_arg0)) (m ((c : Thread nD τ).loc main_arg2))) := by
  have h1 : W1 m c (Proc.devRef .tc main_arg1) = m ((c : Thread nD τ).loc main_arg1) := W1_of_ne m c main_arg1 (by decide)
  have h0 : W1 m c (Proc.devRef .tc main_v0) = slab (m ((c : Thread nD τ).loc main_arg0)) (m ((c : Thread nD τ).loc main_arg2)) :=
    (W1_arr m c 2).trans (final0 (Vent0 m) c)
  rw [← h1, ← h0]
  show StableHlo.after hostOps1 (W1 m c) (Proc.devRef .tc main_v8) = _
  generalize W1 m c = Y
  after_results
  rfl

/-- The second region finds the eigenvector array as launched. -/
theorem entry_arg0 (c : Dev nD) : Vent1 m c main_arg0 = m ((c : Thread nD τ).loc main_arg0) :=
  calc W2 m c (Proc.devRef .tc main_arg0)
    _ = W1 m c (Proc.devRef .tc main_arg0) := StableHlo.after_of_writes_sub hostOps1 _ hostOps1_writes (by decide)
    _ = W0 m c (Proc.devRef .tc main_arg0) := (W1_arr m c 0).trans (((dat0 (Vent0 m) c).arrAt_in 0 rfl _).trans (A_eq0 (Vent0 m) c 0))
    _ = m ((c : Thread nD τ).loc main_arg0) := rfl

/-- Rows of U against the weighted spectrum of the two accumulators, clamped, is the specification. -/
theorem clamped_weighted_eq (U : SU.Idx → EReal) (g : Sg.Idx → EReal) (x : SX.Idx → EReal) :
    clamped U (weighted g (slab U x)) = G U g x := by
  funext j
  obtain ⟨n, f, rfl⟩ : ∃ (n : Fin 50000) (f : Fin 128), j = ix2 n f := ⟨j 0, j 1, eq_ix2 j⟩
  show max _ _ = max _ _
  refine congrArg (fun z => max z (Ideal.ofBits .f32 0x00000000#32)) ?_
  show (∑ k : Fin 512, U (ix2 n k) * weighted g (slab U x) (ix2 k f)) = logit U g x n f
  unfold logit
  refine Finset.sum_congr rfl fun k _ => ?_
  rw [weighted_apply]
  exact congrArg (fun z => U (ix2 n k) * (g (ix1 k) * z)) (acc_add U x k f)

/-- THE RESULT ARRAY of the kernel program is the specification of the launch arguments. -/
theorem kernel_value (c : Dev nD) : (dat1 (Vent1 m) c).arrAt 2 cfg1.N
    = G (m ((c : Thread nD τ).loc main_arg0)) (m ((c : Thread nD τ).loc main_arg1)) (m ((c : Thread nD τ).loc main_arg2)) := by
  rw [final1, entry_arg0, entry_v8]
  exact clamped_weighted_eq _ _ _

end Cert.KernelIdeal.Hand

end
-- ==== Proof.ReferenceValue.lean ====
/-
  The reference program's result is the specification: read one operation at a time, its value at (n, f) is
  max( sum over k of U(n, k) * (g(k) * sum over r of U(r, k) * x(r, f)), 0 ) — the transpose, the two
  broadcasts of g and the two contractions each read at an index.
-/
import proofs.«149052_j48928267436259_2_alg».proof.Proof.Gen.ReferenceIdeal.Read
import proofs.«149052_j48928267436259_2_alg».proof.Proof.SpectralSpec

noncomputable section

namespace Cert.ReferenceIdeal.RefValue

open Cert.ReferenceIdeal Cert.ReferenceIdeal.Read Idealize.ShloMosaic Idealize.ShloMosaic.ValueIdx Cert.SpectralSpec

theorem ref_eq (U : (⟨S50000x512, .f32⟩ : BufTy).Contents (Elt Ideal)) (g : (⟨S512, .f32⟩ : BufTy).Contents (Elt Ideal))
    (x : (⟨S50000x128, .f32⟩ : BufTy).Contents (Elt Ideal)) :
    val_main_v6 (F := Ideal) U g x = G U g x := by
  funext j
  obtain ⟨n, f, rfl⟩ : ∃ (n : Fin 50000) (f : Fin 128), j = ix2 n f := ⟨j 0, j 1, eq_ix2 j⟩
  rw [val_main_v6_apply, val_main_v5_apply, val_main_call0_v0_apply, val_main_call0_cst_apply]
  show max _ _ = max _ _
  refine congrArg (fun z => max z (Ideal.ofBits .f32 0x00000000#32)) ?_
  show _ = logit U g x n f
  unfold logit
  refine Finset.sum_congr rfl fun k _ => ?_
  have e1 : lidx_main_v5 (ix2 n f) k = ix2 n k := funext fun a => Fin.ext (by match a with | ⟨0, _⟩ => rfl | ⟨1, _⟩ => rfl)
  have e2 : ridx_main_v5 (ix2 n f) k = ix2 k f := funext fun a => Fin.ext (by match a with | ⟨0, _⟩ => rfl | ⟨1, _⟩ => rfl)
  rw [e1, e2, val_main_v4_apply, val_main_v3_apply, val_main_v2_apply, val_main_v1_apply]
  have e3 : idx_main_v2 (idx_main_v3 (ix2 k f)) = ix1 k := funext fun a => Fin.ext (by match a with | ⟨0, _⟩ => rfl)
  rw [e3]
  show U (ix2 n k) * (g (ix1 k) * _) = _
  refine congrArg (fun z => U (ix2 n k) * (g (ix1 k) * z)) ?_
  unfold Cert.SpectralSpec.spectrum
  refine Finset.sum_congr rfl fun r _ => ?_
  rw [val_main_v0_apply]
  have e4 : idx_main_v0 (lidx_main_v1 (ix2 k f) r) = ix2 r k := funext fun a => Fin.ext (by match a with | ⟨0, _⟩ => rfl | ⟨1, _⟩ => rfl)
  have e5 : ridx_main_v1 (ix2 k f) r = ix2 r f := funext fun a => Fin.ext (by match a with | ⟨0, _⟩ => rfl | ⟨1, _⟩ => rfl)
  rw [e4, e5]

end Cert.ReferenceIdeal.RefValue

end
-- ==== Proof.lean ====
/-
  Spectral graph convolution, relu(U diag(g) Uᵀ x), as two kernels against its one-line reference.

  The kernel program forms the spectrum Uᵀ x in ten blocks of 5000 rows, blocks 0-4 summed into one 512 x 128
  accumulator and blocks 5-9 into another (each started from zero), adds the two on the host, scales row k by g(k),
  and then multiplies each block of 5000 rows of U by the result, clamping below at zero. The reference forms Uᵀ x as
  one sum over all 50000 rows. Over the extended reals the two agree because a finite sum may be regrouped freely:
  addition is commutative and associative and zero is its unit — no finiteness of the inputs is needed, and the
  precondition is never opened.

  Frames. Both the word-level and the idealized kernel program run as three items — the accumulating region (its
  scratch accumulator carried from grid point to grid point inside the region's invariant), eight host operations, the
  clamped-product region — and every unscoped buffer is followed through them; the arguments are written by nothing.
  The reference's frame is its run with the result dropped. No rewrite was applied when the kernel was idealized, so
  there is nothing to preserve.
-/
import proofs.«149052_j48928267436259_2_alg».proof.Defs
import proofs.«149052_j48928267436259_2_alg».proof.Proof.Gen.Kernel
import proofs.«149052_j48928267436259_2_alg».proof.Proof.Gen.KernelIdeal
import proofs.«149052_j48928267436259_2_alg».proof.Proof.Gen.ReferenceIdeal
import proofs.«149052_j48928267436259_2_alg».proof.Proof.Gen.Pre_finite_inputs
import proofs.«149052_j48928267436259_2_alg».proof.Proof.Gen.ReferenceIdeal.Run
import proofs.«149052_j48928267436259_2_alg».proof.Proof.Gen.ReferenceIdeal.Read
import proofs.«149052_j48928267436259_2_alg».proof.Proof.BitsTwoRegionRun
import proofs.«149052_j48928267436259_2_alg».proof.Proof.TwoRegionRun
import proofs.«149052_j48928267436259_2_alg».proof.Proof.KernelValue
import proofs.«149052_j48928267436259_2_alg».proof.Proof.ReferenceValue

noncomputable section

namespace Cert.Proof

open Idealize.ShloMosaic Idealize.ShloMosaic.TcCoe Idealize.SL.Sem

/-- The word-level kernel program terminates and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's array of the (agreeing) arguments. -/
theorem algebraic : Cert.algebraic_KernelIdeal_ReferenceIdeal := by
  intro m ρ m' ρ' _ hagree
  refine ⟨fun c => Cert.SpectralSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.kernel_value m c), (h c).2⟩)
      (Cert.KernelIdeal.Hand.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v6_eq, Cert.ReferenceIdeal.RefValue.ref_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
